-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S131072x15 : S_.BroadcastsInDim S131072x15 (![] : Fin 0 → Fin S131072x15.rank)
  reducesTo_S131072x15_S_d0_1 : S131072x15.ReducesTo [0, 1] S_
  h_S_ : 0 < S_.numel
  bcast_S_S36x128 : S_.BroadcastsInDim S36x128 (![] : Fin 0 → Fin S36x128.rank)
  reducesTo_S36x128_S_d0_1 : S36x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S512 .f32) (main_arg5 : FVec F S512x40 .f32) (main_arg6 : FVec F S40 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x40 .f32 := Host.absf main_arg5
  let main_cst_8 : FVec F S_ .f32 := constant S_ .f32 0x7F800000#32
  let main_v25 : FVec F S512x40 .f32 := broadcastInDim S512x40 ![] bcast_S_S512x40 main_cst_8
  let main_v26 : IVec S512x40 1 := cmpf .olt main_v24 main_v25
  let main_c_9 : IVec S_ 1 := constantI S_ 1 1#1
  let main_v27 : IVec S_ 1 := (fun x v => Host.reduce IntOp.andi x v reducesTo_S512x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S131072x15 .f32) (main_arg1 : FVec F S36x128 .f32) (main_arg2 : FVec F S128 .f32) (main_arg3 : FVec F S128x512 .f32) (main_arg4 : FVec F S512 .f32) (main_arg5 : FVec F S512x40 .f32) (main_arg6 : FVec F S40 .f32) : IVec S_ 1 :=
  let main_v0 : FVec F S131072x15 .f32 := Host.absf main_arg0
  let main_cst : FVec F S_ .f32 := constant S_ .f32 0x7F800000#32
  let main_v1 : FVec F S131072x15 .f32 := broadcastInDim S131072x15 ![] bcast_S_S131072x15 main_cst
  let main_v2 : IVec S131072x15 1 := cmpf .olt main_v0 main_v1
  let main_c : IVec S_ 1 := constantI S_ 1 1#1
  let main_v3 : IVec S_ 1 := (fun x v => Host.reduce IntOp.andi x v reducesTo_S131072x15_S_d0_1 h_S_) main_v2 main_c
  let main_v4 : FVec F S36x128 .f32 := Host.absf main_arg1
  let main_cst_0 : FVec F S_ .f32 := constant S_ .f32 0x7F800000#32
  let main_v5 : FVec F S36x128 .f32 := broadcastInDim S36x128 ![] bcast_S_S36x128 main_cst_0
  let main_v6 : IVec S36x128 1 := cmpf .olt main_v4 main_v5
  let main_c_1 : IVec S_ 1 := constantI S_ 1 1#1
  let main_v7 : IVec S_ 1 := (fun x v => Host.reduce IntOp.andi x v reducesTo_S36x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S1x128 : Shape := ⟨2, ![1, 128]⟩
abbrev S1x512 : Shape := ⟨2, ![1, 512]⟩
abbrev S1x40 : Shape := ⟨2, ![1, 40]⟩
abbrev S131072x40 : Shape := ⟨2, ![131072, 40]⟩
abbrev S4096x15 : Shape := ⟨2, ![4096, 15]⟩
abbrev S4096x40 : Shape := ⟨2, ![4096, 40]⟩
abbrev S4096x11 : Shape := ⟨2, ![4096, 11]⟩
abbrev S4096x1 : Shape := ⟨2, ![4096, 1]⟩
abbrev S4096 : Shape := ⟨1, ![4096]⟩
abbrev S4096x3 : Shape := ⟨2, ![4096, 3]⟩
abbrev S4096x4 : Shape := ⟨2, ![4096, 4]⟩
abbrev S4096x7 : Shape := ⟨2, ![4096, 7]⟩
abbrev S4096x21 : Shape := ⟨2, ![4096, 21]⟩
abbrev S11x128 : Shape := ⟨2, ![11, 128]⟩
abbrev S4x128 : Shape := ⟨2, ![4, 128]⟩
abbrev S21x128 : Shape := ⟨2, ![21, 128]⟩
abbrev S4096x128 : Shape := ⟨2, ![4096, 128]⟩
abbrev S4096x512 : Shape := ⟨2, ![4096, 512]⟩

abbrev nBuf : Space → Nat
  | .hbm => 11
  | .vmem => 10
  | .smem => 0
  | _ => 0

abbrev bufTy : (tb : Table) → Fin (tcTables nBuf tb) → BufTy
  | .hbm, ⟨0, _⟩ => ⟨S131072x15, .f32⟩
  | .hbm, ⟨1, _⟩ => ⟨S36x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S512x40, .f32⟩
  | .hbm, ⟨6, _⟩ => ⟨S40, .f32⟩
  | .hbm, ⟨7, _⟩ => ⟨S1x128, .f32⟩
  | .hbm, ⟨8, _⟩ => ⟨S1x512, .f32⟩
  | .hbm, ⟨9, _⟩ => ⟨S1x40, .f32⟩
  | .hbm, ⟨10, _⟩ => ⟨S131072x40, .f32⟩
  | .local _ .vmem, ⟨0, _⟩ => ⟨S4096x15, .f32⟩
  | .local _ .vmem, ⟨1, _⟩ => ⟨S4096x15, .f32⟩
  | .local _ .vmem, ⟨2, _⟩ => ⟨S36x128, .f32⟩
  | .local _ .vmem, ⟨3, _⟩ => ⟨S1x128, .f32⟩
  | .local _ .vmem, ⟨4, _⟩ => ⟨S128x512, .f32⟩
  | .local _ .vmem, ⟨5, _⟩ => ⟨S1x512, .f32⟩
  | .local _ .vmem, ⟨6, _⟩ => ⟨S512x40, .f32⟩
  | .local _ .vmem, ⟨7, _⟩ => ⟨S1x40, .f32⟩
  | .local _ .vmem, ⟨8, _⟩ => ⟨S4096x40, .f32⟩
  | .local _ .vmem, ⟨9, _⟩ => ⟨S4096x40, .f32⟩
  | _, _ => ⟨S131072x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S512_S1x512 : S512.ShapeCasts S1x512
  shapeCasts_S40_S1x40 : S40.ShapeCasts S1x40
  inb_S4096x15_S4096x15_0_0 : ∀ a, (![0, 0] : Fin 2 → Nat) a + S4096x15.size a ≤ S4096x15.size a
  h_S4096x15 : 0 < S4096x15.numel
  slices_S4096x15_o0_0_S4096x11 : S4096x15.Slices ![0, 0] S4096x11
  slices_S4096x15_o0_11_S4096x1 : S4096x15.Slices ![0, 11] S4096x1
  shapeCasts_S4096x1_S4096 : S4096x1.ShapeCasts S4096
  slices_S4096x15_o0_12_S4096x3 : S4096x15.Slices ![0, 12] S4096x3
  iota_S4096x4_d1_w32 : S4096x4.Iotas .tc 32 [1]
  shapeCasts_S4096_S4096x1 : S4096.ShapeCasts S4096x1
  broadcasts_S4096x1_S4096x4 : S4096x1.Broadcasts S4096x4
  natLt_1_32 : 1 < 32
  bitsLt_bf16_f32 : FTy.bits .bf16 < FTy.bits .f32
  iota_S4096x7_d1_w32 : S4096x7.Iotas .tc 32 [1]
  slices_S4096x3_o0_0_S4096x1 : S4096x3.Slices ![0, 0] S4096x1
  broadcasts_S4096x1_S4096x7 : S4096x1.Broadcasts S4096x7
  slices_S4096x3_o0_1_S4096x1 : S4096x3.Slices ![0, 1] S4096x1
  slices_S4096x3_o0_2_S4096x1 : S4096x3.Slices ![0, 2] S4096x1
  concatenates_S4096x7_S4096x7_S4096x7_S4096x21_d1 : Shape.Concatenates [S4096x7, S4096x7, S4096x7] S4096x21 1
  inb_S36x128_S36x128_0_0 : ∀ a, (![0, 0] : Fin 2 → Nat) a + S36x128.size a ≤ S36x128.size a
  h_S36x128 : 0 < S36x128.numel
  slices_S36x128_o0_0_S11x128 : S36x128.Slices ![0, 0] S11x128
  slices_S36x128_o11_0_S4x128 : S36x128.Slices ![11, 0] S4x128
  slices_S36x128_o15_0_S21x128 : S36x128.Slices ![15, 0] S21x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x40_S512x40_0_0 : ∀ a, (![0, 0] : Fin 2 → Nat) a + S512x40.size a ≤ S512x40.size a
  h_S512x40 : 0 < S512x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  inb_S4096x40_S4096x40_0_0 : ∀ a, (![0, 0] : Fin 2 → Nat) a + S4096x40.size a ≤ S4096x40.size a
  h_S4096x40 : 0 < S4096x40.numel
  dot_S4096x11_S11x128_S4096x128_1_0_0_1_n_n_wf : DotDims.WF S4096x11 S11x128 S4096x128 [1] [0] [0] [1] [] []
  dot_S4096x4_S4x128_S4096x128_1_0_0_1_n_n_wf : DotDims.WF S4096x4 S4x128 S4096x128 [1] [0] [0] [1] [] []
  dot_S4096x21_S21x128_S4096x128_1_0_0_1_n_n_wf : DotDims.WF S4096x21 S21x128 S4096x128 [1] [0] [0] [1] [] []
  dot_S4096x128_S128x512_S4096x512_1_0_0_1_n_n_wf : DotDims.WF S4096x128 S128x512 S4096x512 [1] [0] [0] [1] [] []
  dot_S4096x512_S512x40_S4096x40_1_0_0_1_n_n_wf : DotDims.WF S4096x512 S512x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x15.size a ≤ S131072x15.size a
  hwx0_0 : ∀ i : grid0.Coords, EltTy.bits .f32 = 32 ∨ (Rect.block (s := S131072x15) S4096x15.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x128.size a ≤ S36x128.size a
  hwx0_1 : ∀ i : grid0.Coords, EltTy.bits .f32 = 32 ∨ (Rect.block (s := S36x128) S36x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x40.size a ≤ S512x40.size a
  hwx0_5 : ∀ i : grid0.Coords, EltTy.bits .f32 = 32 ∨ (Rect.block (s := S512x40) S512x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x40.size a ≤ S131072x40.size a
  hwx0_7 : ∀ i : grid0.Coords, EltTy.bits .f32 = 32 ∨ (Rect.block (s := S131072x40) S4096x40.size (cc0_transform_7 i) (hinb0_7 i)).WholeWords (EltTy.packing .f32)

variable [Facts₀]

def dot_S4096x11_S11x128_S4096x128_1_0_0_1_n_n : DotDims S4096x11 S11x128 S4096x128 where
  lhsContracting := [1]
  rhsContracting := [0]
  lhsNonContracting := [0]
  rhsNonContracting := [1]
  lhsBatch := []
  rhsBatch := []
  wf := dot_S4096x11_S11x128_S4096x128_1_0_0_1_n_n_wf
def dot_S4096x4_S4x128_S4096x128_1_0_0_1_n_n : DotDims S4096x4 S4x128 S4096x128 where
  lhsContracting := [1]
  rhsContracting := [0]
  lhsNonContracting := [0]
  rhsNonContracting := [1]
  lhsBatch := []
  rhsBatch := []
  wf := dot_S4096x4_S4x128_S4096x128_1_0_0_1_n_n_wf
def dot_S4096x21_S21x128_S4096x128_1_0_0_1_n_n : DotDims S4096x21 S21x128 S4096x128 where
  lhsContracting := [1]
  rhsContracting := [0]
  lhsNonContracting := [0]
  rhsNonContracting := [1]
  lhsBatch := []
  rhsBatch := []
  wf := dot_S4096x21_S21x128_S4096x128_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x40_S4096x40_1_0_0_1_n_n : DotDims S4096x512 S512x40 S4096x40 where
  lhsContracting := [1]
  rhsContracting := [0]
  lhsNonContracting := [0]
  rhsNonContracting := [1]
  lhsBatch := []
  rhsBatch := []
  wf := dot_S4096x512_S512x40_S4096x40_1_0_0_1_n_n_wf

abbrev win0_0 : Pipeline.Window sig grid0 :=
  Pipeline.Window.ofSpec (Memref.whole main_arg0) S4096x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S36x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x15 : Shape := ⟨2, ![131072, 15]⟩
abbrev S36x128 : Shape := ⟨2, ![36, 128]⟩
abbrev S128 : Shape := ⟨1, ![128]⟩
abbrev S128x512 : Shape := ⟨2, ![128, 512]⟩
abbrev S512 : Shape := ⟨1, ![512]⟩
abbrev S512x40 : Shape := ⟨2, ![512, 40]⟩
abbrev S40 : Shape := ⟨1, ![40]⟩
abbrev S131072x11 : Shape := ⟨2, ![131072, 11]⟩
abbrev S131072x1 : Shape := ⟨2, ![131072, 1]⟩
abbrev S131072 : Shape := ⟨1, ![131072]⟩
abbrev S_ : Shape := ⟨0, ![]⟩
abbrev S131072x3 : Shape := ⟨2, ![131072, 3]⟩
abbrev S1x4 : Shape := ⟨2, ![1, 4]⟩
abbrev S131072x4 : Shape := ⟨2, ![131072, 4]⟩
abbrev S131072x3x1 : Shape := ⟨3, ![131072, 3, 1]⟩
abbrev S1x1x7 : Shape := ⟨3, ![1, 1, 7]⟩
abbrev S131072x3x7 : Shape := ⟨3, ![131072, 3, 7]⟩
abbrev S131072x21 : Shape := ⟨2, ![131072, 21]⟩
abbrev S131072x36 : Shape := ⟨2, ![131072, 36]⟩
abbrev S131072x128 : Shape := ⟨2, ![131072, 128]⟩
abbrev S1x128 : Shape := ⟨2, ![1, 128]⟩
abbrev S131072x512 : Shape := ⟨2, ![131072, 512]⟩
abbrev S1x512 : Shape := ⟨2, ![1, 512]⟩
abbrev S131072x40 : Shape := ⟨2, ![131072, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S131072x15, .f32⟩
  | .hbm, ⟨1, _⟩ => ⟨S36x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S512x40, .f32⟩
  | .hbm, ⟨6, _⟩ => ⟨S40, .f32⟩
  | .hbm, ⟨7, _⟩ => ⟨S131072x11, .f32⟩
  | .hbm, ⟨8, _⟩ => ⟨S131072x1, .f32⟩
  | .hbm, ⟨9, _⟩ => ⟨S131072, .f32⟩
  | .hbm, ⟨10, _⟩ => ⟨S131072, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072x3, .f32⟩
  | .hbm, ⟨20, _⟩ => ⟨S131072x3, .i32⟩
  | .hbm, ⟨21, _⟩ => ⟨S_, .i32⟩
  | .hbm, ⟨22, _⟩ => ⟨S131072x3, .i32⟩
  | .hbm, ⟨23, _⟩ => ⟨S131072x3, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S131072x3, .i32⟩
  | .hbm, ⟨28, _⟩ => ⟨S131072x3, .i32⟩
  | .hbm, ⟨29, _⟩ => ⟨S_, .i32⟩
  | .hbm, ⟨30, _⟩ => ⟨S131072x3, .i32⟩
  | .hbm, ⟨31, _⟩ => ⟨S131072x3, .i32⟩
  | .hbm, ⟨32, _⟩ => ⟨S131072x1, .i32⟩
  | .hbm, ⟨33, _⟩ => ⟨S1x4, .i32⟩
  | .hbm, ⟨34, _⟩ => ⟨S131072x4, .i32⟩
  | .hbm, ⟨35, _⟩ => ⟨S131072x4, .i32⟩
  | .hbm, ⟨36, _⟩ => ⟨S131072x4, .i1⟩
  | .hbm, ⟨37, _⟩ => ⟨S131072x4, .f32⟩
  | .hbm, ⟨38, _⟩ => ⟨S131072x3x1, .i32⟩
  | .hbm, ⟨39, _⟩ => ⟨S1x1x7, .i32⟩
  | .hbm, ⟨40, _⟩ => ⟨S131072x3x7, .i32⟩
  | .hbm, ⟨41, _⟩ => ⟨S131072x3x7, .i32⟩
  | .hbm, ⟨42, _⟩ => ⟨S131072x3x7, .i1⟩
  | .hbm, ⟨43, _⟩ => ⟨S131072x3x7, .f32⟩
  | .hbm, ⟨44, _⟩ => ⟨S131072x21, .f32⟩
  | .hbm, ⟨45, _⟩ => ⟨S131072x36, .f32⟩
  | .hbm, ⟨46, _⟩ => ⟨S131072x128, .f32⟩
  | .hbm, ⟨47, _⟩ => ⟨S1x128, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S131072x512, .f32⟩
  | .hbm, ⟨54, _⟩ => ⟨S1x512, .f32⟩
  | .hbm, ⟨55, _⟩ => ⟨S131072x512, .f32⟩
  | .hbm, ⟨56, _⟩ => ⟨S131072x512, .f32⟩
  | .hbm, ⟨57, _⟩ => ⟨S_, .f32⟩
  | .hbm, ⟨58, _⟩ => ⟨S131072x512, .f32⟩
  | .hbm, ⟨59, _⟩ => ⟨S131072x512, .f32⟩
  | .hbm, ⟨60, _⟩ => ⟨S131072x40, .f32⟩
  | .hbm, ⟨61, _⟩ => ⟨S1x40, .f32⟩
  | .hbm, ⟨62, _⟩ => ⟨S131072x40, .f32⟩
  | .hbm, ⟨63, _⟩ => ⟨S131072x40, .f32⟩
  | _, _ => ⟨S131072x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v9 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v10 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call4_cst : Ref sig .tc := ⟨.hbm, 50, rfl⟩
abbrev main_call4_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call5_cst : Ref sig .tc := ⟨.hbm, 57, rfl⟩
abbrev main_call5_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩

abbrev nD : Nat := 1
abbrev τ : Topo := Topo.v7x

variable {F : FTy → Type} [FloatOps F]

class Facts₀ : Prop where
  slices_S131072x15_S131072x11_0_0 : S131072x15.Slices ![0, 0] S131072x11
  slices_S131072x15_S131072x1_0_11 : S131072x15.Slices ![0, 11] S131072x1
  shapeCasts_S131072x1_S131072 : S131072x1.ShapeCasts S131072
  bcast_S_S131072 : S_.BroadcastsInDim S131072 (![] : Fin 0 → Fin S131072.rank)
  slices_S131072x15_S131072x3_0_12 : S131072x15.Slices ![0, 12] S131072x3
  bcast_S_S131072x3 : S_.BroadcastsInDim S131072x3 (![] : Fin 0 → Fin S131072x3.rank)
  bcast_S131072_S131072x1_0 : S131072.BroadcastsInDim S131072x1 (![0] : Fin 1 → Fin S131072x1.rank)
  bcast_S131072x1_S131072x4_0_1 : S131072x1.BroadcastsInDim S131072x4 (![0, 1] : Fin 2 → Fin S131072x4.rank)
  bcast_S1x4_S131072x4_0_1 : S1x4.BroadcastsInDim S131072x4 (![0, 1] : Fin 2 → Fin S131072x4.rank)
  bcast_S131072x3_S131072x3x1_0_1 : S131072x3.BroadcastsInDim S131072x3x1 (![0, 1] : Fin 2 → Fin S131072x3x1.rank)
  bcast_S131072x3x1_S131072x3x7_0_1_2 : S131072x3x1.BroadcastsInDim S131072x3x7 (![0, 1, 2] : Fin 3 → Fin S131072x3x7.rank)
  bcast_S1x1x7_S131072x3x7_0_1_2 : S1x1x7.BroadcastsInDim S131072x3x7 (![0, 1, 2] : Fin 3 → Fin S131072x3x7.rank)
  shapeCasts_S131072x3x7_S131072x21 : S131072x3x7.ShapeCasts S131072x21
  concatenates_S131072x11_S131072x4_S131072x21_S131072x36_d1 : Shape.Concatenates [S131072x11, S131072x4, S131072x21] S131072x36 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S40_S1x40_1 : S40.BroadcastsInDim S1x40 (![1] : Fin 1 → Fin S1x40.rank)
  bcast_S1x40_S131072x40_0_1 : S1x40.BroadcastsInDim S131072x40 (![0, 1] : Fin 2 → Fin S131072x40.rank)
  dot_S131072x36_S36x128_S131072x128_1_0_0_1_n_n_wf : DotDims.WF S131072x36 S36x128 S131072x128 [1] [0] [0] [1] [] []
  dot_S131072x128_S128x512_S131072x512_1_0_0_1_n_n_wf : DotDims.WF S131072x128 S128x512 S131072x512 [1] [0] [0] [1] [] []
  dot_S131072x512_S512x40_S131072x40_1_0_0_1_n_n_wf : DotDims.WF S131072x512 S512x40 S131072x40 [1] [0] [0] [1] [] []

variable [Facts₀]

def dot_S131072x36_S36x128_S131072x128_1_0_0_1_n_n : DotDims S131072x36 S36x128 S131072x128 where
  lhsContracting := [1]
  rhsContracting := [0]
  lhsNonContracting := [0]
  rhsNonContracting := [1]
  lhsBatch := []
  rhsBatch := []
  wf := dot_S131072x36_S36x128_S131072x128_1_0_0_1_n_n_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x40_S131072x40_1_0_0_1_n_n : DotDims S131072x512 S512x40 S131072x40 where
  lhsContracting := [1]
  rhsContracting := [0]
  lhsNonContracting := [0]
  rhsNonContracting := [1]
  lhsBatch := []
  rhsBatch := []
  wf := dot_S131072x512_S512x40_S131072x40_1_0_0_1_n_n_wf

class Facts : Prop extends Facts₀ where

variable [Facts]
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.KernelDots.lean ====
/-
  The five matrix products of the kernel body, each read at an index of its result.

  Every product of the body contracts the columns of its left operand against the rows of its right operand and
  starts from the zero accumulator, so at `(p, j)` it is the plain sum over the contracted coordinate `k` of
  `left (p, k) · right (k, j)`. The general statement is in LibPlainMatmul; here it is instantiated at the five
  dimension records the body uses, the four coordinate facts each by unfolding the record.
-/
import proofs.«105876_j40776419508448_2_alg».proof.Proof.Gen.KernelIdeal
import proofs.«105876_j40776419508448_2_alg».proof.Proof.LibPlainMatmul

noncomputable section

namespace Cert.KernelIdeal.BodyRow

open Cert.KernelIdeal Idealize.ShloMosaic Idealize.ShloMosaic.ValueIdx

/-- The product over the 11 board features, into the zero accumulator, at `(p, j)`. -/
theorem mm_board (a : FVec Ideal S4096x11 .bf16) (b : FVec Ideal S11x128 .bf16) (p : Fin 4096) (j : Fin 128) :
    matmul dot_S4096x11_S11x128_S4096x128_1_0_0_1_n_n none a b (constant (F := Ideal) S4096x128 .f32 0x00000000#32) (ix2 p j)
      = ∑ k : Fin 11, a (ix2 p k) * b (ix2 k j) :=
  Cert.LibPlainMatmul.matmul_zero_at dot_S4096x11_S11x128_S4096x128_1_0_0_1_n_n none rfl rfl
    (fun i q => by
      unfold DotDims.lhsIdx
      rw [dif_neg (show ¬(0 : Fin S4096x11.rank) ∈ dot_S4096x11_S11x128_S4096x128_1_0_0_1_n_n.lhsBatch by decide), dif_pos (show (0 : Fin S4096x11.rank) ∈ dot_S4096x11_S11x128_S4096x128_1_0_0_1_n_n.lhsNonContracting by decide)]
      rfl)
    (fun i q => dot_S4096x11_S11x128_S4096x128_1_0_0_1_n_n.lhsIdx_val_of_single rfl i q)
    (fun i q => dot_S4096x11_S11x128_S4096x128_1_0_0_1_n_n.rhsIdx_val_of_single rfl i q)
    (fun i q => by
      unfold DotDims.rhsIdx
      rw [dif_neg (show ¬(1 : Fin S11x128.rank) ∈ dot_S4096x11_S11x128_S4096x128_1_0_0_1_n_n.rhsBatch by decide), dif_pos (show (1 : Fin S11x128.rank) ∈ dot_S4096x11_S11x128_S4096x128_1_0_0_1_n_n.rhsNonContracting by decide)]
      rfl)
    a b p j

/-- The product over the 4 held-piece indicators, into the zero accumulator, at `(p, j)`. -/
theorem mm_hold (a : FVec Ideal S4096x4 .bf16) (b : FVec Ideal S4x128 .bf16) (p : Fin 4096) (j : Fin 128) :
    matmul dot_S4096x4_S4x128_S4096x128_1_0_0_1_n_n none a b (constant (F := Ideal) S4096x128 .f32 0x00000000#32) (ix2 p j)
      = ∑ k : Fin 4, a (ix2 p k) * b (ix2 k j) :=
  Cert.LibPlainMatmul.matmul_zero_at dot_S4096x4_S4x128_S4096x128_1_0_0_1_n_n none rfl rfl
    (fun i q => by
      unfold DotDims.lhsIdx
      rw [dif_neg (show ¬(0 : Fin S4096x4.rank) ∈ dot_S4096x4_S4x128_S4096x128_1_0_0_1_n_n.lhsBatch by decide), dif_pos (show (0 : Fin S4096x4.rank) ∈ dot_S4096x4_S4x128_S4096x128_1_0_0_1_n_n.lhsNonContracting by decide)]
      rfl)
    (fun i q => dot_S4096x4_S4x128_S4096x128_1_0_0_1_n_n.lhsIdx_val_of_single rfl i q)
    (fun i q => dot_S4096x4_S4x128_S4096x128_1_0_0_1_n_n.rhsIdx_val_of_single rfl i q)
    (fun i q => by
      unfold DotDims.rhsIdx
      rw [dif_neg (show ¬(1 : Fin S4x128.rank) ∈ dot_S4096x4_S4x128_S4096x128_1_0_0_1_n_n.rhsBatch by decide), dif_pos (show (1 : Fin S4x128.rank) ∈ dot_S4096x4_S4x128_S4096x128_1_0_0_1_n_n.rhsNonContracting by decide)]
      rfl)
    a b p j

/-- The product over the 21 next-piece indicators, into the zero accumulator, at `(p, j)`. -/
theorem mm_next (a : FVec Ideal S4096x21 .bf16) (b : FVec Ideal S21x128 .bf16) (p : Fin 4096) (j : Fin 128) :
    matmul dot_S4096x21_S21x128_S4096x128_1_0_0_1_n_n none a b (constant (F := Ideal) S4096x128 .f32 0x00000000#32) (ix2 p j)
      = ∑ k : Fin 21, a (ix2 p k) * b (ix2 k j) :=
  Cert.LibPlainMatmul.matmul_zero_at dot_S4096x21_S21x128_S4096x128_1_0_0_1_n_n none rfl rfl
    (fun i q => by
      unfold DotDims.lhsIdx
      rw [dif_neg (show ¬(0 : Fin S4096x21.rank) ∈ dot_S4096x21_S21x128_S4096x128_1_0_0_1_n_n.lhsBatch by decide), dif_pos (show (0 : Fin S4096x21.rank) ∈ dot_S4096x21_S21x128_S4096x128_1_0_0_1_n_n.lhsNonContracting by decide)]
      rfl)
    (fun i q => dot_S4096x21_S21x128_S4096x128_1_0_0_1_n_n.lhsIdx_val_of_single rfl i q)
    (fun i q => dot_S4096x21_S21x128_S4096x128_1_0_0_1_n_n.rhsIdx_val_of_single rfl i q)
    (fun i q => by
      unfold DotDims.rhsIdx
      rw [dif_neg (show ¬(1 : Fin S21x128.rank) ∈ dot_S4096x21_S21x128_S4096x128_1_0_0_1_n_n.rhsBatch by decide), dif_pos (show (1 : Fin S21x128.rank) ∈ dot_S4096x21_S21x128_S4096x128_1_0_0_1_n_n.rhsNonContracting by decide)]
      rfl)
    a b p j

/-- The product over the 128 first hidden values, into the zero accumulator, at `(p, j)`. -/
theorem mm_mid (a : FVec Ideal S4096x128 .bf16) (b : FVec Ideal S128x512 .bf16) (p : Fin 4096) (j : Fin 512) :
    matmul dot_S4096x128_S128x512_S4096x512_1_0_0_1_n_n none a b (constant (F := Ideal) S4096x512 .f32 0x00000000#32) (ix2 p j)
      = ∑ k : Fin 128, a (ix2 p k) * b (ix2 k j) :=
  Cert.LibPlainMatmul.matmul_zero_at dot_S4096x128_S128x512_S4096x512_1_0_0_1_n_n none rfl rfl
    (fun i q => by
      unfold DotDims.lhsIdx
      rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
      rfl)
    (fun i q => dot_S4096x128_S128x512_S4096x512_1_0_0_1_n_n.lhsIdx_val_of_single rfl i q)
    (fun i q => dot_S4096x128_S128x512_S4096x512_1_0_0_1_n_n.rhsIdx_val_of_single rfl i q)
    (fun i q => by
      unfold DotDims.rhsIdx
      rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
      rfl)
    a b p j

/-- The product over the 512 second hidden values, into the zero accumulator, at `(p, j)`. -/
theorem mm_last (a : FVec Ideal S4096x512 .bf16) (b : FVec Ideal S512x40 .bf16) (p : Fin 4096) (j : Fin 40) :
    matmul dot_S4096x512_S512x40_S4096x40_1_0_0_1_n_n none a b (constant (F := Ideal) S4096x40 .f32 0x00000000#32) (ix2 p j)
      = ∑ k : Fin 512, a (ix2 p k) * b (ix2 k j) :=
  Cert.LibPlainMatmul.matmul_zero_at dot_S4096x512_S512x40_S4096x40_1_0_0_1_n_n none rfl rfl
    (fun i q => by
      unfold DotDims.lhsIdx
      rw [dif_neg (show ¬(0 : Fin S4096x512.rank) ∈ dot_S4096x512_S512x40_S4096x40_1_0_0_1_n_n.lhsBatch by decide), dif_pos (show (0 : Fin S4096x512.rank) ∈ dot_S4096x512_S512x40_S4096x40_1_0_0_1_n_n.lhsNonContracting by decide)]
      rfl)
    (fun i q => dot_S4096x512_S512x40_S4096x40_1_0_0_1_n_n.lhsIdx_val_of_single rfl i q)
    (fun i q => dot_S4096x512_S512x40_S4096x40_1_0_0_1_n_n.rhsIdx_val_of_single rfl i q)
    (fun i q => by
      unfold DotDims.rhsIdx
      rw [dif_neg (show ¬(1 : Fin S512x40.rank) ∈ dot_S4096x512_S512x40_S4096x40_1_0_0_1_n_n.rhsBatch by decide), dif_pos (show (1 : Fin S512x40.rank) ∈ dot_S4096x512_S512x40_S4096x40_1_0_0_1_n_n.rhsNonContracting by decide)]
      rfl)
    a b p j

end Cert.KernelIdeal.BodyRow

end
-- ==== Proof.MlpRow.lean ====
/-
  One state row through the network, on the extended reals.

  A state row has 15 entries: 11 real board features, one held-piece id, three next-piece ids. The ids are read
  as integers (truncation toward zero), the held id clipped to 0..3, each next id shifted down by one and clipped to
  0..6, and each is replaced by its indicator vector (4, respectively 7 entries). That gives 11 + 4 + 3·7 = 36
  features, which go through three affine layers 36 → 128 → 512 → 40 with a rectifier after the first two.

  This file states that function once (`row`), and proves the two facts about it that do not depend on any program:
  a sum over the 36 features is the sum over the 11 board features, plus the sum over the 4 held-piece indicators,
  plus the sum over the 21 next-piece indicators (only commutativity and associativity of addition are used, so the
  statement holds in any commutative monoid, the extended reals included); and an indicator bit widened to 32 bits
  with zeros reads the same signed as the bit itself reads unsigned.
-/
import Idealize.ShloMosaic.PureOps.Ideal
import Idealize.ShloMosaic.Lib.ValueIdx

noncomputable section

namespace Cert.MlpRow

open Idealize.ShloMosaic Idealize.ShloMosaic.ValueIdx

/-- The held-piece id of an entry: truncated toward zero, then clipped to 0..3. -/
def holdId (x : EReal) : BitVec 32 := IntOp.minsi 3#32 (IntOp.maxsi 0#32 (Ideal.fptosi 32 x))

/-- A next-piece id of an entry: truncated toward zero, shifted down by one, then clipped to 0..6. -/
def nextId (x : EReal) : BitVec 32 := IntOp.minsi 6#32 (IntOp.maxsi 0#32 (IntOp.subi (Ideal.fptosi 32 x) 1#32))

/-- The indicator of `a = q`, as an extended real: 1 when the id is `q`, 0 otherwise. -/
def hot (a : BitVec 32) (q : ℕ) : EReal := (((IntOp.cmpi .eq a (BitVec.ofNat 32 q)).toNat : ℝ) : EReal)

/-- The 36 features of a state row: entries 0..10 as they are, the held id's four indicators, and for each of the
    three next ids its seven indicators (feature 15 + 7 p + q is the indicator that next id p equals q). -/
def feat (xr : Fin 15 → EReal) (k : Fin 36) : EReal :=
  if h : k.val < 11 then xr ⟨k.val, by omega⟩
  else if h' : k.val < 15 then hot (holdId (xr ⟨11, by omega⟩)) (k.val - 11)
  else hot (nextId (xr ⟨12 + (k.val - 15) / 7, by omega⟩)) ((k.val - 15) % 7)

/-- The first layer: affine in the 36 features, then the rectifier. -/
def hidden1 (xr : Fin 15 → EReal) (W1 : Fin 36 → Fin 128 → EReal) (b1 : Fin 128 → EReal) (j : Fin 128) : EReal :=
  max (∑ k : Fin 36, feat xr k * W1 k j + b1 j) (Ideal.ofBits .f32 0x00000000#32)

/-- The second layer: affine in the 128 hidden values, then the rectifier. -/
def hidden2 (h1 : Fin 128 → EReal) (W2 : Fin 128 → Fin 512 → EReal) (b2 : Fin 512 → EReal) (j : Fin 512) : EReal :=
  max (∑ k : Fin 128, h1 k * W2 k j + b2 j) (Ideal.ofBits .f32 0x00000000#32)

/-- The last layer: affine in the 512 hidden values. -/
def last (h2 : Fin 512 → EReal) (W4 : Fin 512 → Fin 40 → EReal) (b4 : Fin 40 → EReal) (j : Fin 40) : EReal :=
  ∑ k : Fin 512, h2 k * W4 k j + b4 j

/-- The 40 action values of one state row. -/
def row (xr : Fin 15 → EReal) (W1 : Fin 36 → Fin 128 → EReal) (b1 : Fin 128 → EReal)
    (W2 : Fin 128 → Fin 512 → EReal) (b2 : Fin 512 → EReal) (W4 : Fin 512 → Fin 40 → EReal) (b4 : Fin 40 → EReal)
    (j : Fin 40) : EReal :=
  last (hidden2 (hidden1 xr W1 b1) W2 b2) W4 b4 j

/-- The whole result: row `r` of the output is `row` of row `r` of the states. -/
def result (X : (⟨2, ![131072, 15]⟩ : Shape).Idx → EReal) (W1 : (⟨2, ![36, 128]⟩ : Shape).Idx → EReal)
    (b1 : (⟨1, ![128]⟩ : Shape).Idx → EReal) (W2 : (⟨2, ![128, 512]⟩ : Shape).Idx → EReal)
    (b2 : (⟨1, ![512]⟩ : Shape).Idx → EReal) (W4 : (⟨2, ![512, 40]⟩ : Shape).Idx → EReal)
    (b4 : (⟨1, ![40]⟩ : Shape).Idx → EReal) : (⟨2, ![131072, 40]⟩ : Shape).Idx → EReal :=
  fun i => row (fun c => X (ix2 (i 0) c)) (fun k j => W1 (ix2 k j)) (fun j => b1 (ix1 j))
    (fun k j => W2 (ix2 k j)) (fun j => b2 (ix1 j)) (fun k j => W4 (ix2 k j)) (fun j => b4 (ix1 j)) (i 1)

/-! ## Regrouping the 36 features -/

/-- A sum over 36 indices is the sum over the first 11, plus the next 4, plus the last 21. -/
theorem sum36_split {M : Type*} [AddCommMonoid M] (f : Fin 36 → M) :
    ∑ k : Fin 36, f k
      = (∑ k : Fin 11, f ⟨k.val, by omega⟩ + ∑ k : Fin 4, f ⟨11 + k.val, by omega⟩)
        + ∑ k : Fin 21, f ⟨15 + k.val, by omega⟩ := by
  have h1 : ∑ k : Fin 36, f k = ∑ k : Fin 15, f ⟨k.val, by omega⟩ + ∑ k : Fin 21, f ⟨15 + k.val, by omega⟩ :=
    Fin.sum_univ_add (a := 15) (b := 21) f
  have h2 : ∑ k : Fin 15, f ⟨k.val, by omega⟩
      = ∑ k : Fin 11, f ⟨k.val, by omega⟩ + ∑ k : Fin 4, f ⟨11 + k.val, by omega⟩ :=
    Fin.sum_univ_add (a := 11) (b := 4) fun k : Fin 15 => f ⟨k.val, by omega⟩
  rw [h1, h2]

/-- The features at the three groups of indices. -/
theorem feat_board (xr : Fin 15 → EReal) (k : Fin 11) : feat xr ⟨k.val, by omega⟩ = xr ⟨k.val, by omega⟩ := by
  unfold feat
  rw [dif_pos (show k.val < 11 from k.isLt)]

theorem feat_hold (xr : Fin 15 → EReal) (q : Fin 4) :
    feat xr ⟨11 + q.val, by omega⟩ = hot (holdId (xr ⟨11, by omega⟩)) q.val := by
  unfold feat
  rw [dif_neg (show ¬(11 + q.val < 11) by omega), dif_pos (show 11 + q.val < 15 by omega)]
  show hot _ (11 + q.val - 11) = _
  rw [Nat.add_sub_cancel_left]

theorem feat_next (xr : Fin 15 → EReal) (c : Fin 21) :
    feat xr ⟨15 + c.val, by omega⟩ = hot (nextId (xr ⟨12 + c.val / 7, by omega⟩)) (c.val % 7) := by
  unfold feat
  rw [dif_neg (show ¬(15 + c.val < 11) by omega), dif_neg (show ¬(15 + c.val < 15) by omega)]
  show hot (nextId (xr ⟨12 + (15 + c.val - 15) / 7, _⟩)) ((15 + c.val - 15) % 7) = _
  simp only [Nat.add_sub_cancel_left]

/-! ## An indicator bit as a float, two ways -/

/-- A one-bit word widened to 32 bits with zeros, read as a signed integer, is the bit read unsigned. -/
theorem toInt_setWidth_bit (b : BitVec 1) : (b.setWidth 32).toInt = (b.toNat : ℤ) := by
  by_cases h : b = 1#1
  · subst h; decide
  · rw [eq_zero_of_ne_one h]; decide

end Cert.MlpRow

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.KernelFeatures.lean ====
/-
  What the kernel body feeds its first layer, read at an index of a block of 4096 state rows.

  From its block of states `x0` the body cuts the 11 board columns, turns column 11 into the held piece's four
  indicators and columns 12..14 into the next pieces' 3 · 7 indicators (three 7-column pieces laid side by side, so
  column 7 p + q of the 21 is the indicator that next id p equals q); from the first weight matrix it cuts the three
  bands of rows 0..10, 11..14 and 15..35. Each of these six values is read here at `(p, ·)` in terms of row `p` of the
  block alone, which is what makes the body a row-by-row function. An indicator is computed as a one-bit comparison
  widened with zeros and converted as a signed integer; that is the bit itself, 0 or 1.
-/
import proofs.«105876_j40776419508448_2_alg».proof.Proof.Gen.KernelIdeal.Skeleton
import proofs.«105876_j40776419508448_2_alg».proof.Proof.MlpRow
import proofs.«105876_j40776419508448_2_alg».proof.Proof.LibKeepdims
import proofs.«105876_j40776419508448_2_alg».proof.Proof.LibSqueezeColumn
import Idealize.ShloMosaic.Lib.Pipeline.Value
import Idealize.ShloMosaic.Lib.ValueLayout
import Idealize.ShloMosaic.Lib.ValueIdx

noncomputable section

namespace Cert.KernelIdeal.BodyRow

open Cert.KernelIdeal Cert.KernelIdeal.Gen Idealize.ShloMosaic Idealize.ShloMosaic.ValueIdx Cert.MlpRow

/-! ## Integer operations read at an index -/

theorem cmpi_at {s : Shape} {w : ℕ} (pr : CmpIPredicate) (a b : IVec s w) (i : s.Idx) :
    cmpi pr a b i = IntOp.cmpi pr (a i) (b i) := rfl
theorem minsi_at {s : Shape} {w : ℕ} (a b : IVec s w) (i : s.Idx) : minsi a b i = IntOp.minsi (a i) (b i) := rfl
theorem maxsi_at {s : Shape} {w : ℕ} (a b : IVec s w) (i : s.Idx) : maxsi a b i = IntOp.maxsi (a i) (b i) := rfl
theorem subi_at {s : Shape} {w : ℕ} (a b : IVec s w) (i : s.Idx) : subi a b i = IntOp.subi (a i) (b i) := rfl
theorem fptosi_at {s : Shape} {φ : FTy} (w : ℕ) (a : FVec Ideal s φ) (i : s.Idx) :
    (fptosi w a : IVec s w) i = Ideal.fptosi w (a i) := rfl

/-- A comparison bit widened with zeros and converted as a signed integer is the bit, 0 or 1. -/
theorem bit_as_float (b : BitVec 1) :
    FloatOps.sitofp (F := Ideal) .f32 (b.setWidth 32) = (((b.toNat : ℝ)) : EReal) := by
  show (((b.setWidth 32).toInt : ℝ) : EReal) = _
  rw [toInt_setWidth_bit, Int.cast_natCast]

/-! ## The board columns -/

/-- The 11 board columns of the block, at `(p, k)`: the block at `(p, k)`. -/
theorem board_at (x0 : Vec Ideal S4096x15 .f32) (p : Fin 4096) (k : Fin 11) :
    k0_pay4 x0 (ix2 p k) = x0 (ix2 p ⟨k.val, by omega⟩) := by
  unfold k0_pay4
  rw [truncf_apply]
  exact slice2_axis1_apply 0 x0 slices_S4096x15_o0_0_S4096x11 p k ⟨k.val, by omega⟩ (Nat.zero_add _).symm

/-! ## The held piece's indicators -/

/-- The four held-piece indicators of row `p`: indicator `q` of the id read off column 11. -/
theorem hold_at (x0 : Vec Ideal S4096x15 .f32) (p : Fin 4096) (q : Fin 4) :
    k0_pay2 x0 (ix2 p q) = hot (holdId (x0 (ix2 p ⟨11, by omega⟩))) q.val := by
  unfold k0_pay2
  rw [truncf_apply, sitofp_apply, extui_apply, bit_as_float, cmpi_at,
    Cert.Keepdims.broadcastTo_a1_ab_apply, Cert.Keepdims.shapeCast_a_a1_apply, iota_single_apply,
    minsi_at, maxsi_at, fptosi_at, broadcast_apply, broadcast_apply,
    Cert.LibSqueezeColumn.shapeCast_a1_a_apply,
    slice2_axis1_apply 11 x0 slices_S4096x15_o0_11_S4096x1 p (0 : Fin 1) ⟨11, by omega⟩ rfl]
  rfl

/-! ## The next pieces' indicators -/

/-- The three next-piece ids of every row of the block. -/
def nextIds (x0 : Vec Ideal S4096x15 .f32) : IVec S4096x3 32 :=
  minsi (broadcast S4096x3 6#32) (maxsi (broadcast S4096x3 0#32)
    (subi (fptosi 32 (extractStridedSlice S4096x3 ![0, 12] x0 slices_S4096x15_o0_12_S4096x3 : FVec Ideal S4096x3 .f32))
      (broadcast S4096x3 1#32)))

/-- Next id `n` of row `p` is read off column 12 + n. -/
theorem nextIds_at (x0 : Vec Ideal S4096x15 .f32) (p : Fin 4096) (n : Fin 3) :
    nextIds x0 (ix2 p n) = nextId (x0 (ix2 p ⟨12 + n.val, by omega⟩)) := by
  unfold nextIds
  rw [minsi_at, maxsi_at, subi_at, fptosi_at, broadcast_apply, broadcast_apply, broadcast_apply,
    slice2_axis1_apply 12 x0 slices_S4096x15_o0_12_S4096x3 p n ⟨12 + n.val, by omega⟩ rfl]
  rfl

/-- The seven indicators of the next id in column `o` of the ids, for every row. -/
def nextPiece (x0 : Vec Ideal S4096x15 .f32) (o : ℕ) (hs : S4096x3.Slices ![0, o] S4096x1) : FVec Ideal S4096x7 .bf16 :=
  truncf .bf16 (sitofp .f32 (extui 32 (cmpi .eq
    (broadcastTo S4096x7 (extractStridedSlice S4096x1 ![0, o] (nextIds x0) hs) broadcasts_S4096x1_S4096x7)
    (iota .tc S4096x7 32 [1] iota_S4096x7_d1_w32)) natLt_1_32)) bitsLt_bf16_f32

theorem nextPiece_at (x0 : Vec Ideal S4096x15 .f32) (o : ℕ) (hs : S4096x3.Slices ![0, o] S4096x1) (n : Fin 3)
    (hn : n.val = o) (p : Fin 4096) (q : Fin 7) :
    nextPiece x0 o hs (ix2 p q) = hot (nextId (x0 (ix2 p ⟨12 + n.val, by omega⟩))) q.val := by
  unfold nextPiece
  rw [truncf_apply, sitofp_apply, extui_apply, bit_as_float, cmpi_at, Cert.Keepdims.broadcastTo_a1_ab_apply,
    slice2_axis1_apply o (nextIds x0) hs p (0 : Fin 1) n (by omega), iota_single_apply, nextIds_at]
  rfl

/-- The three pieces, in the order they are laid side by side. -/
abbrev nextPieces (x0 : Vec Ideal S4096x15 .f32) : List ((s : Shape) × (s.Idx → Ideal .bf16)) :=
  [⟨S4096x7, nextPiece x0 0 slices_S4096x3_o0_0_S4096x1⟩, ⟨S4096x7, nextPiece x0 1 slices_S4096x3_o0_1_S4096x1⟩,
    ⟨S4096x7, nextPiece x0 2 slices_S4096x3_o0_2_S4096x1⟩]

/-- The 21 next-piece columns are the three pieces side by side. -/
theorem pay3_eq (x0 : Vec Ideal S4096x15 .f32) :
    k0_pay3 x0 = concatenate S4096x21 1 (nextPieces x0) concatenates_S4096x7_S4096x7_S4096x7_S4096x21_d1 := rfl

/-- Column `c` of the 21 is indicator `c mod 7` of next id `c / 7`, read off column 12 + c / 7. -/
theorem next_at (x0 : Vec Ideal S4096x15 .f32) (p : Fin 4096) (c : Fin 21) :
    k0_pay3 x0 (ix2 p c) = hot (nextId (x0 (ix2 p ⟨12 + c.val / 7, by omega⟩))) (c.val % 7) := by
  rw [pay3_eq]
  have hc : c.val / 7 = 0 ∨ c.val / 7 = 1 ∨ c.val / 7 = 2 := by omega
  rcases hc with h | h | h
  · have e : (⟨12 + (0 : Fin 3).val, by omega⟩ : Fin 15) = ⟨12 + c.val / 7, by omega⟩ :=
      Fin.ext (by show 12 + 0 = 12 + c.val / 7; omega)
    rw [concatenate_apply_piece (1 : Fin S4096x21.rank) (nextPieces x0) concatenates_S4096x7_S4096x7_S4096x7_S4096x21_d1 (ix2 p c)
      0 (by show 0 < 3; omega) S4096x7 (nextPiece x0 0 slices_S4096x3_o0_0_S4096x1) rfl rfl 0 rfl
      (ix2 p (⟨c.val % 7, Nat.mod_lt _ (by omega)⟩ : Fin 7))
      (fun b hb => by
        match b with
        | ⟨0, _⟩ => rfl
        | ⟨1, _⟩ => exact absurd rfl hb)
      (by show 0 + c.val % 7 = c.val; omega),
      nextPiece_at x0 0 _ (0 : Fin 3) rfl, e]
  · have e : (⟨12 + (1 : Fin 3).val, by omega⟩ : Fin 15) = ⟨12 + c.val / 7, by omega⟩ :=
      Fin.ext (by show 12 + 1 = 12 + c.val / 7; omega)
    rw [concatenate_apply_piece (1 : Fin S4096x21.rank) (nextPieces x0) concatenates_S4096x7_S4096x7_S4096x7_S4096x21_d1 (ix2 p c)
      1 (by show 1 < 3; omega) S4096x7 (nextPiece x0 1 slices_S4096x3_o0_1_S4096x1) rfl rfl 7 rfl
      (ix2 p (⟨c.val % 7, Nat.mod_lt _ (by omega)⟩ : Fin 7))
      (fun b hb => by
        match b with
        | ⟨0, _⟩ => rfl
        | ⟨1, _⟩ => exact absurd rfl hb)
      (by show 7 + c.val % 7 = c.val; omega),
      nextPiece_at x0 1 _ (1 : Fin 3) rfl, e]
  · have e : (⟨12 + (2 : Fin 3).val, by omega⟩ : Fin 15) = ⟨12 + c.val / 7, by omega⟩ :=
      Fin.ext (by show 12 + 2 = 12 + c.val / 7; omega)
    rw [concatenate_apply_piece (1 : Fin S4096x21.rank) (nextPieces x0) concatenates_S4096x7_S4096x7_S4096x7_S4096x21_d1 (ix2 p c)
      2 (by show 2 < 3; omega) S4096x7 (nextPiece x0 2 slices_S4096x3_o0_2_S4096x1) rfl rfl 14 rfl
      (ix2 p (⟨c.val % 7, Nat.mod_lt _ (by omega)⟩ : Fin 7))
      (fun b hb => by
        match b with
        | ⟨0, _⟩ => rfl
        | ⟨1, _⟩ => exact absurd rfl hb)
      (by show 14 + c.val % 7 = c.val; omega),
      nextPiece_at x0 2 _ (2 : Fin 3) rfl, e]

/-! ## The three bands of the first weight matrix -/

theorem w1_board_at (x1 : Vec Ideal S36x128 .f32) (k : Fin 11) (j : Fin 128) :
    k0_pay6 x1 (ix2 k j) = x1 (ix2 ⟨k.val, by omega⟩ j) := by
  unfold k0_pay6 k0_pay5
  exact slice2_axis0_apply 0 _ slices_S36x128_o0_0_S11x128 k j ⟨k.val, by omega⟩ (Nat.zero_add _).symm

theorem w1_hold_at (x1 : Vec Ideal S36x128 .f32) (k : Fin 4) (j : Fin 128) :
    k0_pay7 x1 (ix2 k j) = x1 (ix2 ⟨11 + k.val, by omega⟩ j) := by
  unfold k0_pay7 k0_pay5
  exact slice2_axis0_apply 11 _ slices_S36x128_o11_0_S4x128 k j ⟨11 + k.val, by omega⟩ rfl

theorem w1_next_at (x1 : Vec Ideal S36x128 .f32) (k : Fin 21) (j : Fin 128) :
    k0_pay8 x1 (ix2 k j) = x1 (ix2 ⟨15 + k.val, by omega⟩ j) := by
  unfold k0_pay8 k0_pay5
  exact slice2_axis0_apply 15 _ slices_S36x128_o15_0_S21x128 k j ⟨15 + k.val, by omega⟩ rfl

end Cert.KernelIdeal.BodyRow

end
-- ==== Proof.KernelLayers.lean ====
/-
  The kernel body's result at an index of its block: the network applied to that row of the block.

  The body's stored value is three stages. The first adds three matrix products — board columns against rows 0..10 of
  the first weight matrix, held-piece indicators against rows 11..14, next-piece indicators against rows 15..35 — and
  the bias row, then rectifies; the second and third are a product against a whole weight matrix plus a bias row, the
  second rectified. Read at `(p, j)`, each product is a sum over its contracted coordinate, and the three sums of the
  first stage are together the one sum over all 36 features: addition of extended reals is commutative and
  associative, and nothing else is used (no finiteness of the inputs is needed anywhere). The narrowing of a value
  to a 16-bit float before a product is the identity on the extended reals.
-/
import proofs.«105876_j40776419508448_2_alg».proof.Proof.KernelDots
import proofs.«105876_j40776419508448_2_alg».proof.Proof.KernelFeatures

noncomputable section

namespace Cert.KernelIdeal.BodyRow

open Cert.KernelIdeal Cert.KernelIdeal.Gen Idealize.ShloMosaic Idealize.ShloMosaic.ValueIdx Cert.MlpRow

/-! ## The three stages of the stored value -/

/-- First stage: the three products summed, the bias row added, rectified. -/
def hid1 (v16 : FVec Ideal S4096x4 .bf16) (v43 : FVec Ideal S4096x21 .bf16) (v44 : FVec Ideal S4096x11 .bf16)
    (v47 : FVec Ideal S11x128 .bf16) (v48 : FVec Ideal S4x128 .bf16) (v49 : FVec Ideal S21x128 .bf16)
    (v55 : Vec Ideal S1x128 .f32) : FVec Ideal S4096x128 .f32 :=
  maximumf
    (addf
      (addf
        (addf (matmul dot_S4096x11_S11x128_S4096x128_1_0_0_1_n_n none v44 v47 (constant (F := Ideal) S4096x128 .f32 0x00000000#32))
          (matmul dot_S4096x4_S4x128_S4096x128_1_0_0_1_n_n none v16 v48 (constant (F := Ideal) S4096x128 .f32 0x00000000#32)))
        (matmul dot_S4096x21_S21x128_S4096x128_1_0_0_1_n_n none v43 v49 (constant (F := Ideal) S4096x128 .f32 0x00000000#32)))
      (broadcastTo S4096x128 (shapeCast S1x128 v55 shapeCasts_S1x128_S1x128) broadcasts_S1x128_S4096x128))
    (broadcast S4096x128 (Scalar.ofBits (F := Ideal) .f32 0x00000000#32))

/-- Second stage: one product, the bias row added, rectified. -/
def hid2 (h1 : FVec Ideal S4096x128 .f32) (v61 : Vec Ideal S128x512 .f32) (v65 : Vec Ideal S1x512 .f32) :
    FVec Ideal S4096x512 .f32 :=
  maximumf
    (addf
      (matmul dot_S4096x128_S128x512_S4096x512_1_0_0_1_n_n none (truncf .bf16 h1 bitsLt_bf16_f32) (truncf .bf16 v61 bitsLt_bf16_f32)
        (constant (F := Ideal) S4096x512 .f32 0x00000000#32))
      (broadcastTo S4096x512 (shapeCast S1x512 v65 shapeCasts_S1x512_S1x512) broadcasts_S1x512_S4096x512))
    (broadcast S4096x512 (Scalar.ofBits (F := Ideal) .f32 0x00000000#32))

/-- Third stage: one product and the bias row. -/
def outp (h2 : FVec Ideal S4096x512 .f32) (v71 : Vec Ideal S512x40 .f32) (v75 : Vec Ideal S1x40 .f32) :
    FVec Ideal S4096x40 .f32 :=
  addf
    (matmul dot_S4096x512_S512x40_S4096x40_1_0_0_1_n_n none (truncf .bf16 h2 bitsLt_bf16_f32) (truncf .bf16 v71 bitsLt_bf16_f32)
      (constant (F := Ideal) S4096x40 .f32 0x00000000#32))
    (broadcastTo S4096x40 (shapeCast S1x40 v75 shapeCasts_S1x40_S1x40) broadcasts_S1x40_S4096x40)

/-- The stored value is the three stages composed. -/
theorem pay1_eq (v16 : FVec Ideal S4096x4 .bf16) (v43 : FVec Ideal S4096x21 .bf16) (v44 : FVec Ideal S4096x11 .bf16)
    (v47 : FVec Ideal S11x128 .bf16) (v48 : FVec Ideal S4x128 .bf16) (v49 : FVec Ideal S21x128 .bf16)
    (v55 : Vec Ideal S1x128 .f32) (v61 : Vec Ideal S128x512 .f32) (v65 : Vec Ideal S1x512 .f32)
    (v71 : Vec Ideal S512x40 .f32) (v75 : Vec Ideal S1x40 .f32) :
    k0_pay1 (F := Ideal) v16 v43 v44 v47 v48 v49 v55 v61 v65 v71 v75
      = outp (hid2 (hid1 v16 v43 v44 v47 v48 v49 v55) v61 v65) v71 v75 := rfl

/-! ## Each stage at an index -/

/-- The first stage at `(p, j)`: the three sums, the bias, the rectifier. -/
theorem hid1_at (v16 : FVec Ideal S4096x4 .bf16) (v43 : FVec Ideal S4096x21 .bf16) (v44 : FVec Ideal S4096x11 .bf16)
    (v47 : FVec Ideal S11x128 .bf16) (v48 : FVec Ideal S4x128 .bf16) (v49 : FVec Ideal S21x128 .bf16)
    (v55 : Vec Ideal S1x128 .f32) (p : Fin 4096) (j : Fin 128) :
    hid1 v16 v43 v44 v47 v48 v49 v55 (ix2 p j)
      = max (((∑ k : Fin 11, v44 (ix2 p k) * v47 (ix2 k j)) + (∑ k : Fin 4, v16 (ix2 p k) * v48 (ix2 k j))
              + (∑ k : Fin 21, v43 (ix2 p k) * v49 (ix2 k j))) + v55 (ix2 (0 : Fin 1) j))
          (Ideal.ofBits .f32 0x00000000#32) := by
  unfold hid1
  rw [maximumf_apply, addf_apply, addf_apply, addf_apply, mm_board, mm_hold, mm_next, broadcastTo_1b_ab_apply,
    shapeCast_self, broadcast_apply]
  rfl

/-- The second stage at `(p, j)`, as the specification's second layer of row `p` of its input. -/
theorem hid2_row (h1 : FVec Ideal S4096x128 .f32) (v61 : Vec Ideal S128x512 .f32) (v65 : Vec Ideal S1x512 .f32)
    (p : Fin 4096) (j : Fin 512) :
    hid2 h1 v61 v65 (ix2 p j)
      = hidden2 (fun k => h1 (ix2 p k)) (fun k j => v61 (ix2 k j)) (fun j => v65 (ix2 (0 : Fin 1) j)) j := by
  unfold hid2 hidden2
  rw [maximumf_apply, addf_apply, mm_mid, broadcastTo_1b_ab_apply, shapeCast_self, broadcast_apply]
  rfl

/-- The third stage at `(p, j)`, as the specification's last layer of row `p` of its input. -/
theorem outp_row (h2 : FVec Ideal S4096x512 .f32) (v71 : Vec Ideal S512x40 .f32) (v75 : Vec Ideal S1x40 .f32)
    (p : Fin 4096) (j : Fin 40) :
    outp h2 v71 v75 (ix2 p j)
      = last (fun k => h2 (ix2 p k)) (fun k j => v71 (ix2 k j)) (fun j => v75 (ix2 (0 : Fin 1) j)) j := by
  unfold outp last
  rw [addf_apply, mm_last, broadcastTo_1b_ab_apply, shapeCast_self]
  rfl

/-- The first stage, fed the body's six pieces, at `(p, j)`: the specification's first layer of row `p` of the
    block. The three sums are regrouped into the one sum over the 36 features. -/
theorem hid1_row (x0 : Vec Ideal S4096x15 .f32) (x1 : Vec Ideal S36x128 .f32) (x2 : Vec Ideal S1x128 .f32)
    (p : Fin 4096) (j : Fin 128) :
    hid1 (k0_pay2 x0) (k0_pay3 x0) (k0_pay4 x0) (k0_pay6 x1) (k0_pay7 x1) (k0_pay8 x1) x2 (ix2 p j)
      = hidden1 (fun c => x0 (ix2 p c)) (fun k j => x1 (ix2 k j)) (fun j => x2 (ix2 (0 : Fin 1) j)) j := by
  rw [hid1_at]
  unfold hidden1
  rw [sum36_split]
  simp only [feat_board, feat_hold, feat_next, board_at, hold_at, next_at, w1_board_at, w1_hold_at, w1_next_at]

/-! ## The body's result is the network, row by row -/

/-- What the body stores, at `(p, j)` of its block: action value `j` of row `p` of the state block, with the
    weights and the bias rows as loaded. -/
theorem payload_at (x0 : Vec Ideal S4096x15 .f32) (x1 : Vec Ideal S36x128 .f32) (x2 : Vec Ideal S1x128 .f32)
    (x3 : Vec Ideal S128x512 .f32) (x4 : Vec Ideal S1x512 .f32) (x5 : Vec Ideal S512x40 .f32)
    (x6 : Vec Ideal S1x40 .f32) (p : Fin 4096) (j : Fin 40) :
    k0_pay1 (F := Ideal) (k0_pay2 x0) (k0_pay3 x0) (k0_pay4 x0) (k0_pay6 x1) (k0_pay7 x1) (k0_pay8 x1) x2 x3 x4 x5 x6
        (ix2 p j)
      = row (fun c => x0 (ix2 p c)) (fun k j => x1 (ix2 k j)) (fun j => x2 (ix2 (0 : Fin 1) j))
          (fun k j => x3 (ix2 k j)) (fun j => x4 (ix2 (0 : Fin 1) j)) (fun k j => x5 (ix2 k j))
          (fun j => x6 (ix2 (0 : Fin 1) j)) j := by
  have e1 : (fun k => hid1 (k0_pay2 x0) (k0_pay3 x0) (k0_pay4 x0) (k0_pay6 x1) (k0_pay7 x1) (k0_pay8 x1) x2 (ix2 p k))
      = hidden1 (fun c => x0 (ix2 p c)) (fun k j => x1 (ix2 k j)) (fun j => x2 (ix2 (0 : Fin 1) j)) :=
    funext fun k => hid1_row x0 x1 x2 p k
  have e2 : (fun k => hid2 (hid1 (k0_pay2 x0) (k0_pay3 x0) (k0_pay4 x0) (k0_pay6 x1) (k0_pay7 x1) (k0_pay8 x1) x2) x3 x4
        (ix2 p k))
      = hidden2 (hidden1 (fun c => x0 (ix2 p c)) (fun k j => x1 (ix2 k j)) (fun j => x2 (ix2 (0 : Fin 1) j)))
          (fun k j => x3 (ix2 k j)) (fun j => x4 (ix2 (0 : Fin 1) j)) :=
    funext fun k => by rw [hid2_row, e1]
  rw [pay1_eq, outp_row, e2]
  rfl

end Cert.KernelIdeal.BodyRow

end
-- ==== Proof.KernelWhole.lean ====
/-
  From the blocks to the whole result array.

  The grid has 32 points; point `t` stages rows 4096 t .. 4096 t + 4095 of the states, the whole of each weight matrix
  and of each bias row (the bias vectors viewed as one-row matrices before the region), and writes back rows
  4096 t .. 4096 t + 4095 of the result. Since the body's stored value at `(p, j)` is the network applied to row `p` of
  the state block, what point `t` writes back is block `t` of `result` of the argument arrays; the 32 blocks tile the
  131072 rows, so after the run the result array is `result` of the argument arrays, which are unchanged.
-/
import proofs.«105876_j40776419508448_2_alg».proof.Proof.Gen.KernelIdeal.Value
import proofs.«105876_j40776419508448_2_alg».proof.Proof.KernelLayers
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.MlpRow Cert.KernelIdeal.BodyRow
open Idealize.ShloMosaic.Pipeline (Dat)

variable (m : (ℓ : Loc nD τ sig) → Buf (Elt Ideal) ℓ) (ρ : Dev nD → PrngReg)

/-- The result array the run leaves on core `c`, as one function of the argument arrays as launched. -/
def out (c : Dev nD) : S131072x40.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem origin : (![0, 0] : Fin 2 → Nat) = fun _ => 0 := funext fun a => by fin_cases a <;> rfl

/-! ## The index maps, decided over the 32 points -/

/-- The state block moves with the result block along the rows and spans all 15 columns. -/
theorem idx0 : ∀ t : Fin cfg0.N, win0_0.index t (0 : Fin 2) = win0_7.index t (0 : Fin 2) ∧ win0_0.index t (1 : Fin 2) = 0 :=
  (by decide +kernel : ∀ t : Fin grid0.N, win0_0.index t (0 : Fin 2) = win0_7.index t (0 : Fin 2) ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- The result block spans all 40 columns. -/
theorem idx7 : ∀ t : Fin cfg0.N, win0_7.index t (1 : Fin 2) = 0 :=
  (by decide +kernel : ∀ t : Fin grid0.N, win0_7.index t (1 : Fin 2) = 0)
/-- Every one of the 32 row blocks is some point's. -/
theorem idx_onto : ∀ q : Fin 32, ∃ t : Fin cfg0.N, win0_7.index t = ![q.val, 0] :=
  (by decide +kernel : ∀ q : Fin 32, ∃ t : Fin grid0.N, win0_7.index t = ![q.val, 0])

/-! ## What the region finds in the bias rows -/

/-- The bias row the region finds in `main_v0`: the bias vector viewed as one row. -/
theorem V_main_v0 (c : Dev nD) :
    (V m c main_v0 : S1x128.Idx → EReal) = shapeCast S1x128 (m ((c : Thread nD τ).loc main_arg2)) shapeCasts_S128_S1x128 := by
  dsimp only [Gen.V, Gen.hostOps0]; after_results; rfl

/-- The bias row the region finds in `main_v1`: the bias vector viewed as one row. -/
theorem V_main_v1 (c : Dev nD) :
    (V m c main_v1 : S1x512.Idx → EReal) = shapeCast S1x512 (m ((c : Thread nD τ).loc main_arg4)) shapeCasts_S512_S1x512 := by
  dsimp only [Gen.V, Gen.hostOps0]; after_results; rfl

/-- The bias row the region finds in `main_v2`: the bias vector viewed as one row. -/
theorem V_main_v2 (c : Dev nD) :
    (V m c main_v2 : S1x40.Idx → EReal) = shapeCast S1x40 (m ((c : Thread nD τ).loc main_arg6)) shapeCasts_S40_S1x40 := by
  dsimp only [Gen.V, Gen.hostOps0]; after_results; rfl

/-! ## Each window's block, read once -/

/-- Row `p` of the state block at point `t` is row `r` of the states, `r` the row of the result array that row `p` of
    the result block lands on. -/
theorem read0 (c : Dev nD) (t : Fin cfg0.N) (p : Fin 4096) (r : Fin 131072)
    (hr : win0_7.index t (0 : Fin 2) * 4096 + 1 * p.val = r.val) (k : Fin 15) :
    iblk m c 0 t (ix2 p k) = m ((c : Thread nD τ).loc main_arg0) (ix2 r k) := by
  obtain ⟨e0, e1⟩ := idx0 t
  show V m c main_arg0 (((cfg0.win 0).blk t).view.emb (ix2 p k)) = _
  have ei : ((cfg0.win 0).blk t).view.emb (ix2 p k) = ix2 r k :=
    funext fun a => Fin.ext (by
      match a with
      | ⟨0, _⟩ => show win0_0.index t (0 : Fin 2) * 4096 + 1 * p.val = r.val; omega
      | ⟨1, _⟩ => show win0_0.index t (1 : Fin 2) * 15 + 1 * k.val = k.val; omega)
  rw [ei, V_main_arg0]

/-- Window 1's block is the whole weight matrix, at every point. -/
theorem read1 (c : Dev nD) (t : Fin cfg0.N) (k : Fin 36) (j : Fin 128) :
    iblk m c 1 t (ix2 k j) = m ((c : Thread nD τ).loc main_arg1) (ix2 k j) := by
  obtain ⟨e0, e1⟩ := idx1 t
  show V m c main_arg1 (((cfg0.win 1).blk t).view.emb (ix2 k j)) = _
  have ei : ((cfg0.win 1).blk t).view.emb (ix2 k j) = ix2 k j := funext fun a => Fin.ext (by
    match a with
    | ⟨0, _⟩ => show win0_1.index t (0 : Fin 2) * 36 + 1 * k.val = k.val; omega
    | ⟨1, _⟩ => show win0_1.index t (1 : Fin 2) * 128 + 1 * j.val = j.val; omega)
  rw [ei, V_main_arg1]

/-- Window 3's block is the whole weight matrix, at every point. -/
theorem read3 (c : Dev nD) (t : Fin cfg0.N) (k : Fin 128) (j : Fin 512) :
    iblk m c 3 t (ix2 k j) = m ((c : Thread nD τ).loc main_arg3) (ix2 k j) := by
  obtain ⟨e0, e1⟩ := idx3 t
  show V m c main_arg3 (((cfg0.win 3).blk t).view.emb (ix2 k j)) = _
  have ei : ((cfg0.win 3).blk t).view.emb (ix2 k j) = ix2 k j := funext fun a => Fin.ext (by
    match a with
    | ⟨0, _⟩ => show win0_3.index t (0 : Fin 2) * 128 + 1 * k.val = k.val; omega
    | ⟨1, _⟩ => show win0_3.index t (1 : Fin 2) * 512 + 1 * j.val = j.val; omega)
  rw [ei, V_main_arg3]

/-- Window 5's block is the whole weight matrix, at every point. -/
theorem read5 (c : Dev nD) (t : Fin cfg0.N) (k : Fin 512) (j : Fin 40) :
    iblk m c 5 t (ix2 k j) = m ((c : Thread nD τ).loc main_arg5) (ix2 k j) := by
  obtain ⟨e0, e1⟩ := idx5 t
  show V m c main_arg5 (((cfg0.win 5).blk t).view.emb (ix2 k j)) = _
  have ei : ((cfg0.win 5).blk t).view.emb (ix2 k j) = ix2 k j := funext fun a => Fin.ext (by
    match a with
    | ⟨0, _⟩ => show win0_5.index t (0 : Fin 2) * 512 + 1 * k.val = k.val; omega
    | ⟨1, _⟩ => show win0_5.index t (1 : Fin 2) * 40 + 1 * j.val = j.val; omega)
  rw [ei, V_main_arg5]

/-- Window 2's block is the whole bias row, at every point: entry `j` of the bias vector. -/
theorem read2 (c : Dev nD) (t : Fin cfg0.N) (j : Fin 128) :
    iblk m c 2 t (ix2 (0 : Fin 1) j) = m ((c : Thread nD τ).loc main_arg2) (ix1 j) := by
  obtain ⟨e0, e1⟩ := idx2 t
  show V m c main_v0 (((cfg0.win 2).blk t).view.emb (ix2 (0 : Fin 1) j)) = _
  have ei : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 128 + 1 * j.val = j.val; omega)
  rw [ei, V_main_v0, shapeCast_a_1a_apply]

/-- Window 4's block is the whole bias row, at every point: entry `j` of the bias vector. -/
theorem read4 (c : Dev nD) (t : Fin cfg0.N) (j : Fin 512) :
    iblk m c 4 t (ix2 (0 : Fin 1) j) = m ((c : Thread nD τ).loc main_arg4) (ix1 j) := by
  obtain ⟨e0, e1⟩ := idx4 t
  show V m c main_v1 (((cfg0.win 4).blk t).view.emb (ix2 (0 : Fin 1) j)) = _
  have ei : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 512 + 1 * j.val = j.val; omega)
  rw [ei, V_main_v1, shapeCast_a_1a_apply]

/-- Window 6's block is the whole bias row, at every point: entry `j` of the bias vector. -/
theorem read6 (c : Dev nD) (t : Fin cfg0.N) (j : Fin 40) :
    iblk m c 6 t (ix2 (0 : Fin 1) j) = m ((c : Thread nD τ).loc main_arg6) (ix1 j) := by
  obtain ⟨e0, e1⟩ := idx6 t
  show V m c main_v2 (((cfg0.win 6).blk t).view.emb (ix2 (0 : Fin 1) j)) = _
  have ei : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 40 + 1 * j.val = j.val; omega)
  rw [ei, V_main_v2, shapeCast_a_1a_apply]

/-! ## One row of a block against one row of the arrays -/

/-- If row `p` of a state block is row `r` of the states, and the weight and bias blocks are the arrays, then the
    body's stored value at `(p, q)` is `result` at `(r, q)`. -/
theorem block_row (x0 : Vec Ideal S4096x15 .f32) (x1 : Vec Ideal S36x128 .f32) (x2 : Vec Ideal S1x128 .f32)
    (x3 : Vec Ideal S128x512 .f32) (x4 : Vec Ideal S1x512 .f32) (x5 : Vec Ideal S512x40 .f32) (x6 : Vec Ideal S1x40 .f32)
    (X : S131072x15.Idx → EReal) (W1 : S36x128.Idx → EReal) (b1 : S128.Idx → EReal) (W2 : S128x512.Idx → EReal)
    (b2 : S512.Idx → EReal) (W4 : S512x40.Idx → EReal) (b4 : S40.Idx → EReal)
    (p : Fin 4096) (q : Fin 40) (r : Fin 131072)
    (h0 : ∀ k : Fin 15, x0 (ix2 p k) = X (ix2 r k))
    (h1 : ∀ (k : Fin 36) (j : Fin 128), x1 (ix2 k j) = W1 (ix2 k j))
    (h2 : ∀ j : Fin 128, x2 (ix2 (0 : Fin 1) j) = b1 (ix1 j))
    (h3 : ∀ (k : Fin 128) (j : Fin 512), x3 (ix2 k j) = W2 (ix2 k j))
    (h4 : ∀ j : Fin 512, x4 (ix2 (0 : Fin 1) j) = b2 (ix1 j))
    (h5 : ∀ (k : Fin 512) (j : Fin 40), x5 (ix2 k j) = W4 (ix2 k j))
    (h6 : ∀ j : Fin 40, x6 (ix2 (0 : Fin 1) j) = b4 (ix1 j)) :
    k0_pay1 (F := Ideal) (k0_pay2 x0) (k0_pay3 x0) (k0_pay4 x0) (k0_pay6 x1) (k0_pay7 x1) (k0_pay8 x1) x2 x3 x4 x5 x6
        (ix2 p q)
      = result X W1 b1 W2 b2 W4 b4 (ix2 r q) := by
  have a0 : (fun k => x0 (ix2 p k)) = fun k => X (ix2 r k) := funext h0
  have a1 : (fun k j => x1 (ix2 k j)) = fun k j => W1 (ix2 k j) := funext fun k => funext fun j => h1 k j
  have a2 : (fun j => x2 (ix2 (0 : Fin 1) j)) = fun j => b1 (ix1 j) := funext h2
  have a3 : (fun k j => x3 (ix2 k j)) = fun k j => W2 (ix2 k j) := funext fun k => funext fun j => h3 k j
  have a4 : (fun j => x4 (ix2 (0 : Fin 1) j)) = fun j => b2 (ix1 j) := funext h4
  have a5 : (fun k j => x5 (ix2 k j)) = fun k j => W4 (ix2 k j) := funext fun k => funext fun j => h5 k j
  have a6 : (fun j => x6 (ix2 (0 : Fin 1) j)) = fun j => b4 (ix1 j) := funext h6
  rw [payload_at, a0, a1, a2, a3, a4, a5, a6]
  rfl

/-! ## What each point writes back, and the array after the run -/

/-- Point `t` writes back block `t` of `out`. -/
theorem flushed_eq (c : Dev nD) (t : Fin cfg0.N) :
    (dats m 0 c).flushed 7 t = ((cfg0.win 7).blk t).view.read (Elt Ideal) (out m c) := by
  rw [Cert.KernelIdeal.Value.flushed7]
  unfold out0_7
  rw [View.canon_unit_zero origin]
  simp only [View.ld_unit_zero (S := S4096x15) origin, View.ld_unit_zero (S := S36x128) origin,
    View.ld_unit_zero (S := S1x128) origin, View.ld_unit_zero (S := S128x512) origin,
    View.ld_unit_zero (S := S1x512) origin, View.ld_unit_zero (S := S512x40) origin,
    View.ld_unit_zero (S := S1x40) origin]
  refine funext fun (y : S4096x40.Idx) => ?_
  obtain ⟨p, q, rfl⟩ : ∃ (p : Fin 4096) (q : Fin 40), y = ix2 p q := ⟨y 0, y 1, eq_ix2 y⟩
  obtain ⟨r, q', hrq⟩ : ∃ (r : Fin 131072) (q' : Fin 40), ((cfg0.win 7).blk t).view.emb (ix2 p q) = ix2 r q' :=
    ⟨_, _, eq_ix2 _⟩
  have hr : win0_7.index t (0 : Fin 2) * 4096 + 1 * p.val = r.val := congrArg (fun i : S131072x40.Idx => (i 0).val) hrq
  have hq : win0_7.index t (1 : Fin 2) * 40 + 1 * q.val = q'.val := congrArg (fun i : S131072x40.Idx => (i 1).val) hrq
  have hqq : q' = q := Fin.ext (by have e := idx7 t; omega)
  subst hqq
  show k0_pay1 (F := Ideal) (k0_pay2 (iblk m c 0 t)) (k0_pay3 (iblk m c 0 t)) (k0_pay4 (iblk m c 0 t))
      (k0_pay6 (iblk m c 1 t)) (k0_pay7 (iblk m c 1 t)) (k0_pay8 (iblk m c 1 t)) (iblk m c 2 t) (iblk m c 3 t)
      (iblk m c 4 t) (iblk m c 5 t) (iblk m c 6 t) (ix2 p q') = out m c (((cfg0.win 7).blk t).view.emb (ix2 p q'))
  rw [hrq]
  exact block_row (iblk m c 0 t) (iblk m c 1 t) (iblk m c 2 t) (iblk m c 3 t) (iblk m c 4 t) (iblk m c 5 t) (iblk m c 6 t)
    _ _ _ _ _ _ _ p q' r
    (read0 m c t p r hr) (read1 m c t) (read2 m c t) (read3 m c t) (read4 m c t) (read5 m c t) (read6 m c t)

/-- An index of the result array is in point `t`'s block iff each coordinate is in the block's range on its axis. -/
theorem mem_blk (t : Fin cfg0.N) (i : S131072x40.Idx) :
    i ∈ ((cfg0.win 7).blk t).view.set ↔ ∀ a : Fin 2, win0_7.index t a * S4096x40.size a ≤ (i a).val
      ∧ (i a).val < win0_7.index t a * S4096x40.size a + S4096x40.size a := by
  show i ∈ ((View.whole main_v3).slice (win0_7.rect t)).set ↔ _
  rw [View.set_slice_whole, Rect.mem_set_unit]
  exact Iff.rfl

/-- Every index of the result array is in the block of the point its row falls to (row `r` in block `r / 4096`). -/
theorem cover (i : S131072x40.Idx) :
    ∃ t : Fin cfg0.N, (cfg0.win 7).flush t = true ∧ i ∈ ((cfg0.win 7).blk t).view.set := by
  have hi0 : (i 0).val < 131072 := (i 0).isLt
  have hi1 : (i 1).val < 40 := (i 1).isLt
  obtain ⟨t, ht⟩ := idx_onto ⟨(i 0).val / 4096, by omega⟩
  have q0 : win0_7.index t (0 : Fin 2) = (i 0).val / 4096 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 40 ≤ (i 1).val ∧ (i 1).val < win0_7.index t (1 : Fin 2) * 40 + 40
    omega

/-- The result array after the run is `out`. -/
theorem final (c : Dev nD) : (dats m 0 c).arrAt 7 cfg0.N = out m c :=
  (dats m 0 c).arrAt_eq_of_cover 7 (out m c) (fun t _ => flushed_eq m c t) cover

/-- The run, read: the result array at `out`, the arguments unchanged. -/
theorem run : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefFeatures.lean ====
/-
  The reference's 36 features of a state row, read at an index.

  The reference slices the 11 board columns, makes the held id's four indicators and the next ids' 3 × 7 indicators
  (as a [rows, 3, 7] array viewed as [rows, 21], so column c of the 21 is entry (c / 7, c mod 7)), and joins the three
  along the columns. Read at `(r, k)` the joined array is the piece column `k` falls in — columns 0..10 the board,
  11..14 the held piece, 15..35 the next pieces — and each piece, followed back operation by operation, depends only on
  row `r` of the states: it is feature `k` of that row. An indicator here is the comparison bit read unsigned.
-/
import proofs.«105876_j40776419508448_2_alg».proof.Proof.Gen.ReferenceIdeal.Read
import proofs.«105876_j40776419508448_2_alg».proof.Proof.MlpRow
import Idealize.ShloMosaic.Lib.Pipeline.Value
import Idealize.ShloMosaic.Lib.ValueIdx

noncomputable section

namespace Cert.ReferenceIdeal.RefRow

open Cert.ReferenceIdeal Cert.ReferenceIdeal.Gen Cert.ReferenceIdeal.Read Idealize.ShloMosaic Idealize.ShloMosaic.ValueIdx Cert.MlpRow

/-- The board piece at `(r, k)`: the states at `(r, k)`. -/
theorem board_at (X : (⟨S131072x15, .f32⟩ : BufTy).Contents (Elt Ideal)) (r : Fin 131072) (k : Fin 11) :
    val_main_v0 (F := Ideal) X (ix2 r k) = X (ix2 r ⟨k.val, by omega⟩) := by
  rw [val_main_v0_apply]
  exact congrArg X (funext fun a => Fin.ext (by
    match a with
    | ⟨0, _⟩ => rfl
    | ⟨1, _⟩ => rfl))

/-- The held-piece piece at `(r, q)`: indicator `q` of the id read off column 11 of row `r`. -/
theorem hold_at (X : (⟨S131072x15, .f32⟩ : BufTy).Contents (Elt Ideal)) (r : Fin 131072) (q : Fin 4) :
    val_main_v10 (F := Ideal) X (ix2 r q) = hot (holdId (X (ix2 r ⟨11, by omega⟩))) q.val := by
  have e : idx_main_v1 (idx_main_v2 (idx_main_call2_v0 (idx_main_call2_v2 (ix2 r q)))) = ix2 r (⟨11, by omega⟩ : Fin 15) :=
    funext fun a => Fin.ext (by
      match a with
      | ⟨0, _⟩ => exact Nat.div_one _
      | ⟨1, _⟩ => rfl)
  rw [val_main_v10_apply, val_main_call2_v4_apply, val_main_call2_v2_apply, val_main_call2_v0_apply, val_main_v4_apply,
    val_main_call0_v4_apply, val_main_call0_v3_apply, val_main_c_0_apply, val_main_call0_v2_apply,
    val_main_call0_v1_apply, val_main_call0_v0_apply, val_main_c_apply, val_main_v3_apply, val_main_v2_apply,
    val_main_v1_apply, val_main_call2_v3_apply, val_main_call2_v1_apply, e]
  rfl

/-- The next-piece piece at `(r, c)`: indicator `c mod 7` of next id `c / 7`, read off column 12 + c / 7 of row `r`. -/
theorem next_at (X : (⟨S131072x15, .f32⟩ : BufTy).Contents (Elt Ideal)) (r : Fin 131072) (c : Fin 21) :
    val_main_v12 (F := Ideal) X (ix2 r c) = hot (nextId (X (ix2 r ⟨12 + c.val / 7, by omega⟩))) (c.val % 7) := by
  have e : idx_main_v5 (idx_main_call3_v0 (idx_main_call3_v2 (idx_main_v12 (ix2 r c))))
      = ix2 r (⟨12 + c.val / 7, by omega⟩ : Fin 15) :=
    funext fun a => Fin.ext (by
      have hr := r.isLt
      have hc := c.isLt
      match a with
      | ⟨0, _⟩ => show (r.val * 21 + c.val) / 21 = r.val; omega
      | ⟨1, _⟩ => show 12 + (r.val * 21 + c.val) / 7 % 3 = 12 + c.val / 7; omega)
  have eq : (idx_main_call3_v3 (idx_main_v12 (ix2 r c)) 2).val = c.val % 7 := by
    have hr := r.isLt
    have hc := c.isLt
    show (r.val * 21 + c.val) % 7 = c.val % 7
    omega
  rw [val_main_v12_apply, val_main_v11_apply, val_main_call3_v4_apply, val_main_call3_v2_apply, val_main_call3_v0_apply,
    val_main_v9_apply, val_main_call1_v4_apply, val_main_call1_v3_apply, val_main_c_3_apply, val_main_call1_v2_apply,
    val_main_call1_v1_apply, val_main_call1_v0_apply, val_main_c_2_apply, val_main_v8_apply, val_main_v6_apply,
    val_main_v5_apply, val_main_v7_apply, val_main_c_1_apply, val_main_call3_v3_apply, val_main_call3_v1_apply, e, eq]
  rfl

/-- The three pieces, in the order they are joined. -/
abbrev pieces (X : (⟨S131072x15, .f32⟩ : BufTy).Contents (Elt Ideal)) : List ((s : Shape) × (s.Idx → Elt Ideal .f32)) :=
  [⟨S131072x11, val_main_v0 (F := Ideal) X⟩, ⟨S131072x4, val_main_v10 (F := Ideal) X⟩,
    ⟨S131072x21, val_main_v12 (F := Ideal) X⟩]

theorem v13_eq (X : (⟨S131072x15, .f32⟩ : BufTy).Contents (Elt Ideal)) :
    val_main_v13 (F := Ideal) X
      = concatenate S131072x36 1 (pieces X) concatenates_S131072x11_S131072x4_S131072x21_S131072x36_d1 := rfl

/-- The joined array at `(r, k)`: feature `k` of row `r` of the states. -/
theorem feat_at (X : (⟨S131072x15, .f32⟩ : BufTy).Contents (Elt Ideal)) (r : Fin 131072) (k : Fin 36) :
    val_main_v13 (F := Ideal) X (ix2 r k) = feat (fun c => X (ix2 r c)) k := by
  rw [v13_eq]
  unfold feat
  have hk := k.isLt
  by_cases h1 : k.val < 11
  · rw [dif_pos h1, concatenate_apply_piece (1 : Fin S131072x36.rank) (pieces X)
      concatenates_S131072x11_S131072x4_S131072x21_S131072x36_d1 (ix2 r k)
      0 (by show 0 < 3; omega) S131072x11 (val_main_v0 (F := Ideal) X) rfl rfl 0 rfl
      (ix2 r (⟨k.val, h1⟩ : Fin 11))
      (fun b hb => by
        match b with
        | ⟨0, _⟩ => rfl
        | ⟨1, _⟩ => exact absurd rfl hb)
      (by show 0 + k.val = k.val; omega),
      board_at]
  · rw [dif_neg h1]
    by_cases h2 : k.val < 15
    · rw [dif_pos h2, concatenate_apply_piece (1 : Fin S131072x36.rank) (pieces X)
        concatenates_S131072x11_S131072x4_S131072x21_S131072x36_d1 (ix2 r k)
        1 (by show 1 < 3; omega) S131072x4 (val_main_v10 (F := Ideal) X) rfl rfl 11 rfl
        (ix2 r (⟨k.val - 11, by omega⟩ : Fin 4))
        (fun b hb => by
          match b with
          | ⟨0, _⟩ => rfl
          | ⟨1, _⟩ => exact absurd rfl hb)
        (by show 11 + (k.val - 11) = k.val; omega),
        hold_at]
    · rw [dif_neg h2, concatenate_apply_piece (1 : Fin S131072x36.rank) (pieces X)
        concatenates_S131072x11_S131072x4_S131072x21_S131072x36_d1 (ix2 r k)
        2 (by show 2 < 3; omega) S131072x21 (val_main_v12 (F := Ideal) X) rfl rfl 15 rfl
        (ix2 r (⟨k.val - 15, by omega⟩ : Fin 21))
        (fun b hb => by
          match b with
          | ⟨0, _⟩ => rfl
          | ⟨1, _⟩ => exact absurd rfl hb)
        (by show 15 + (k.val - 15) = k.val; omega),
        next_at]

end Cert.ReferenceIdeal.RefRow

end
-- ==== Proof.RefLayers.lean ====
/-
  The reference's result is the network applied to each state row.

  After the 36 features the reference is three affine layers: a product with a weight matrix (at `(r, j)` the sum over
  the contracted coordinate), a bias vector spread over the rows, and after the first two a maximum with zero. Each
  layer read at `(r, j)` depends only on row `r` of its input, so the whole result at `(r, j)` is action value `j` of
  state row `r`.
-/
import proofs.«105876_j40776419508448_2_alg».proof.Proof.RefFeatures

noncomputable section

namespace Cert.ReferenceIdeal.RefRow

open Cert.ReferenceIdeal Cert.ReferenceIdeal.Gen Cert.ReferenceIdeal.Read Idealize.ShloMosaic Idealize.ShloMosaic.ValueIdx Cert.MlpRow

/-- The first layer at `(r, j)`. -/
theorem hid1_at (X : (⟨S131072x15, .f32⟩ : BufTy).Contents (Elt Ideal)) (W1 : (⟨S36x128, .f32⟩ : BufTy).Contents (Elt Ideal)) (b1 : (⟨S128, .f32⟩ : BufTy).Contents (Elt Ideal)) (r : Fin 131072) (j : Fin 128) :
    val_main_v18 (F := Ideal) X W1 b1 (ix2 r j)
      = hidden1 (fun c => X (ix2 r c)) (fun k j => W1 (ix2 k j)) (fun j => b1 (ix1 j)) j := by
  have el : ∀ k : Fin 36, lidx_main_v14 (ix2 r j) k = ix2 r k := fun k => funext fun a => Fin.ext (by
    match a with
    | ⟨0, _⟩ => rfl
    | ⟨1, _⟩ => rfl)
  have er : ∀ k : Fin 36, ridx_main_v14 (ix2 r j) k = ix2 k j := fun k => funext fun a => Fin.ext (by
    match a with
    | ⟨0, _⟩ => rfl
    | ⟨1, _⟩ => rfl)
  have eb : idx_main_v15 (idx_main_v16 (ix2 r j)) = ix1 j := funext fun a => Fin.ext (by
    match a with
    | ⟨0, _⟩ => rfl)
  rw [val_main_v18_apply, val_main_v17_apply, val_main_v14_apply, val_main_v16_apply, val_main_v15_apply,
    val_main_call4_v0_apply, val_main_call4_cst_apply, eb]
  simp only [el, er, feat_at]
  rfl

/-- The second layer at `(r, j)`, from row `r` of the first. -/
theorem hid2_at (X : (⟨S131072x15, .f32⟩ : BufTy).Contents (Elt Ideal)) (W1 : (⟨S36x128, .f32⟩ : BufTy).Contents (Elt Ideal)) (b1 : (⟨S128, .f32⟩ : BufTy).Contents (Elt Ideal)) (W2 : (⟨S128x512, .f32⟩ : BufTy).Contents (Elt Ideal))
    (b2 : (⟨S512, .f32⟩ : BufTy).Contents (Elt Ideal)) (r : Fin 131072) (j : Fin 512) :
    val_main_v23 (F := Ideal) X W1 b1 W2 b2 (ix2 r j)
      = hidden2 (fun k => val_main_v18 (F := Ideal) X W1 b1 (ix2 r k)) (fun k j => W2 (ix2 k j)) (fun j => b2 (ix1 j)) j := by
  have el : ∀ k : Fin 128, lidx_main_v19 (ix2 r j) k = ix2 r k := fun k => funext fun a => Fin.ext (by
    match a with
    | ⟨0, _⟩ => rfl
    | ⟨1, _⟩ => rfl)
  have er : ∀ k : Fin 128, ridx_main_v19 (ix2 r j) k = ix2 k j := fun k => funext fun a => Fin.ext (by
    match a with
    | ⟨0, _⟩ => rfl
    | ⟨1, _⟩ => rfl)
  have eb : idx_main_v20 (idx_main_v21 (ix2 r j)) = ix1 j := funext fun a => Fin.ext (by
    match a with
    | ⟨0, _⟩ => rfl)
  rw [val_main_v23_apply, val_main_v22_apply, val_main_v19_apply, val_main_v21_apply, val_main_v20_apply,
    val_main_call5_v0_apply, val_main_call5_cst_apply, eb]
  simp only [el, er]
  rfl

/-- The last layer at `(r, j)`, from row `r` of the second. -/
theorem last_at (X : (⟨S131072x15, .f32⟩ : BufTy).Contents (Elt Ideal)) (W1 : (⟨S36x128, .f32⟩ : BufTy).Contents (Elt Ideal)) (b1 : (⟨S128, .f32⟩ : BufTy).Contents (Elt Ideal)) (W2 : (⟨S128x512, .f32⟩ : BufTy).Contents (Elt Ideal))
    (b2 : (⟨S512, .f32⟩ : BufTy).Contents (Elt Ideal)) (W4 : (⟨S512x40, .f32⟩ : BufTy).Contents (Elt Ideal)) (b4 : (⟨S40, .f32⟩ : BufTy).Contents (Elt Ideal)) (r : Fin 131072) (j : Fin 40) :
    val_main_v27 (F := Ideal) X W1 b1 W2 b2 W4 b4 (ix2 r j)
      = last (fun k => val_main_v23 (F := Ideal) X W1 b1 W2 b2 (ix2 r k)) (fun k j => W4 (ix2 k j)) (fun j => b4 (ix1 j)) j := by
  have el : ∀ k : Fin 512, lidx_main_v24 (ix2 r j) k = ix2 r k := fun k => funext fun a => Fin.ext (by
    match a with
    | ⟨0, _⟩ => rfl
    | ⟨1, _⟩ => rfl)
  have er : ∀ k : Fin 512, ridx_main_v24 (ix2 r j) k = ix2 k j := fun k => funext fun a => Fin.ext (by
    match a with
    | ⟨0, _⟩ => rfl
    | ⟨1, _⟩ => rfl)
  have eb : idx_main_v25 (idx_main_v26 (ix2 r j)) = ix1 j := funext fun a => Fin.ext (by
    match a with
    | ⟨0, _⟩ => rfl)
  rw [val_main_v27_apply, val_main_v24_apply, val_main_v26_apply, val_main_v25_apply, eb]
  simp only [el, er]
  rfl

/-- The reference's result array is `result` of the argument arrays. -/
theorem reference_eq (X : (⟨S131072x15, .f32⟩ : BufTy).Contents (Elt Ideal)) (W1 : (⟨S36x128, .f32⟩ : BufTy).Contents (Elt Ideal)) (b1 : (⟨S128, .f32⟩ : BufTy).Contents (Elt Ideal)) (W2 : (⟨S128x512, .f32⟩ : BufTy).Contents (Elt Ideal))
    (b2 : (⟨S512, .f32⟩ : BufTy).Contents (Elt Ideal)) (W4 : (⟨S512x40, .f32⟩ : BufTy).Contents (Elt Ideal)) (b4 : (⟨S40, .f32⟩ : BufTy).Contents (Elt Ideal)) :
    val_main_v27 (F := Ideal) X W1 b1 W2 b2 W4 b4 = result X W1 b1 W2 b2 W4 b4 := by
  funext i
  obtain ⟨r, j, rfl⟩ : ∃ (r : Fin 131072) (j : Fin 40), i = ix2 r j := ⟨i 0, i 1, eq_ix2 i⟩
  have e1 : (fun k => val_main_v18 (F := Ideal) X W1 b1 (ix2 r k))
      = hidden1 (fun c => X (ix2 r c)) (fun k j => W1 (ix2 k j)) (fun j => b1 (ix1 j)) :=
    funext fun k => hid1_at X W1 b1 r k
  have e2 : (fun k => val_main_v23 (F := Ideal) X W1 b1 W2 b2 (ix2 r k))
      = hidden2 (hidden1 (fun c => X (ix2 r c)) (fun k j => W1 (ix2 k j)) (fun j => b1 (ix1 j)))
          (fun k j => W2 (ix2 k j)) (fun j => b2 (ix1 j)) :=
    funext fun k => by rw [hid2_at, e1]
  rw [last_at, e2]
  rfl

end Cert.ReferenceIdeal.RefRow

end
-- ==== Proof.lean ====
/-
  A three-layer network on 131072 state rows, computed block by block against computed at once.

  The kernel runs on a grid of 32 points, each taking 4096 rows of the 15-entry states. A row's held-piece id and three
  next-piece ids are read as integers, clipped, and replaced by indicator vectors; with the 11 board entries that makes
  36 features. The kernel never forms the 36 features as one array: it multiplies the 11 board columns, the 4 held
  indicators and the 21 next indicators against the matching three bands of rows of the first weight matrix and adds
  the three products. The reference joins the features into one [rows, 36] array and multiplies once. Both then add
  the bias, rectify, and apply two more affine layers (the first of them rectified). On the extended reals the two
  are the same function of the argument arrays, entry by entry: a sum over 36 terms is the sum of its parts over
  11, 4 and 21 terms (commutativity and associativity of addition only, so no finiteness of the inputs is needed); the
  narrowing of a value to a 16-bit float before a product is the identity; and an indicator is 0 or 1 whether the
  comparison bit is read unsigned (the reference) or widened with zeros and read signed (the kernel).

  The modules: MlpRow states the network on one state row (`row`, `result`) and proves the regrouping of the sum;
  KernelDots, KernelFeatures and KernelLayers read the kernel body's stored value at an index of its block as `row` of
  that row of the block; KernelWhole takes that from the 32 blocks to the whole array (each point writes back its
  block of `result`, the blocks tile the array) over the generated frame run; RefFeatures and RefLayers read the
  reference's generated run, operation by operation, down to `result`. Here the five conjuncts are assembled: the
  two kernel programs' frames are the generated ones, the reference's frame is its generated run with the result
  dropped, the idealization rewrote nothing, and the two runs end at the same `result` of arguments that agree.
-/
import proofs.«105876_j40776419508448_2_alg».proof.Defs
import proofs.«105876_j40776419508448_2_alg».proof.Proof.Gen.Kernel
import proofs.«105876_j40776419508448_2_alg».proof.Proof.Gen.Kernel.Skeleton
import proofs.«105876_j40776419508448_2_alg».proof.Proof.Gen.Kernel.Launch
import proofs.«105876_j40776419508448_2_alg».proof.Proof.Gen.Kernel.Points
import proofs.«105876_j40776419508448_2_alg».proof.Proof.Gen.Kernel.Frame
import proofs.«105876_j40776419508448_2_alg».proof.Proof.Gen.KernelIdeal
import proofs.«105876_j40776419508448_2_alg».proof.Proof.Gen.KernelIdeal.Skeleton
import proofs.«105876_j40776419508448_2_alg».proof.Proof.Gen.KernelIdeal.Launch
import proofs.«105876_j40776419508448_2_alg».proof.Proof.Gen.KernelIdeal.Points
import proofs.«105876_j40776419508448_2_alg».proof.Proof.Gen.KernelIdeal.Frame
import proofs.«105876_j40776419508448_2_alg».proof.Proof.Gen.ReferenceIdeal
import proofs.«105876_j40776419508448_2_alg».proof.Proof.Gen.Pre_finite_inputs
import proofs.«105876_j40776419508448_2_alg».proof.Proof.Gen.KernelIdeal.Value
import proofs.«105876_j40776419508448_2_alg».proof.Proof.Gen.ReferenceIdeal.Run
import proofs.«105876_j40776419508448_2_alg».proof.Proof.Gen.ReferenceIdeal.Read
import proofs.«105876_j40776419508448_2_alg».proof.Proof.KernelWhole
import proofs.«105876_j40776419508448_2_alg».proof.Proof.RefLayers
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From arguments that agree, the kernel's result array and the reference's both end at `result` of the arguments:
    the network applied to every state row. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefRow.reference_eq,
    (hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
